-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S10000x128 : Shape := ⟨2, ![10000, 128]⟩

abbrev nBuf : Space → Nat
  | .hbm => 4
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S10000x128, .f32⟩
  | .local _ .vmem, ⟨5, _⟩ => ⟨S10000x128, .f32⟩
  | .local _ .vmem, ⟨6, _⟩ => ⟨S128x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S128x128_S128x128 : S128x128.ShapeCasts S128x128
  packedbf16_S128x128_S128x128_0_0 : (Rect.unit (s := S128x128) ![0, 0] S128x128.size inb_S128x128_S128x128_0_0).PackedRows (EltTy.packing .bf16)
  inb_S10000x128_S10000x128_0_0 : ∀ a, (![0, 0] : Fin 2 → Nat) a + S10000x128.size a ≤ S10000x128.size a
  h_S10000x128 : 0 < S10000x128.numel
  dot_S128x128_S128x128_S128x128_1_0_0_1_n_n_wf : DotDims.WF S128x128 S128x128 S128x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | .hbm, ⟨4, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MatAssoc.lean ====
/-
  The mathematics of the certificate, with no program in sight.

  Two ways to multiply three matrices.  For x of shape [100000, 128] and W, A of shape [128, 128], all read as
  functions from index pairs to extended reals,

    * `twoStep x W A (i, l)  = ∑ j, (∑ k, x (i, k) · W (k, j)) · A (j, l)`   — first x·W, then (x·W)·A,
    * `combined x W A (i, l) = ∑ k, x (i, k) · (∑ j, W (k, j) · A (j, l))`   — first W·A, then x·(W·A).

  Over the reals these agree by distributivity and an exchange of the two finite sums.  Over the extended reals
  distributivity fails at the infinities, so the law is stated for entries that are all real numbers
  (`IsReal`), proved in ℝ and carried across the coercion.
-/
import Idealize.ShloMosaic.PureOps.Ideal
import Idealize.ShloMosaic.Lib.ValueIdx

noncomputable section

namespace Cert.MatAssoc

open Idealize.ShloMosaic Idealize.ShloMosaic.ValueIdx

/-- Every entry of a family of extended reals is a real number. -/
def IsReal {ι : Type*} (v : ι → EReal) : Prop := ∀ i, ∃ r : ℝ, v i = (r : EReal)

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a triple product of real matrices, at one entry: row `x` of the left factor, the middle
    matrix `w`, column `a` of the right factor. -/
theorem assoc_real {K J : Type*} [Fintype K] [Fintype J] (x : K → ℝ) (w : K → J → ℝ) (a : J → ℝ) :
    ∑ j, (∑ k, x k * w k j) * a j = ∑ k, x k * ∑ j, w k j * a j := by
  simp only [Finset.sum_mul, Finset.mul_sum]
  rw [Finset.sum_comm]
  exact Finset.sum_congr rfl fun k _ => Finset.sum_congr rfl fun j _ => by ring

/-- The same over the extended reals, for real entries. -/
theorem assoc_ereal {K J : Type*} [Fintype K] [Fintype J] (x : K → EReal) (w : K → J → EReal) (a : J → EReal)
    (hx : ∀ k, ∃ r : ℝ, x k = (r : EReal)) (hw : ∀ k j, ∃ r : ℝ, w k j = (r : EReal))
    (ha : ∀ j, ∃ r : ℝ, a j = (r : EReal)) :
    ∑ j, (∑ k, x k * w k j) * a j = ∑ k, x k * ∑ j, w k j * a j := by
  choose x' hx' using hx
  choose w' hw' using hw
  choose a' ha' using ha
  simp only [hx', hw', ha', ← EReal.coe_mul, ← coe_sum]
  exact congrArg _ (assoc_real x' w' a')

/-- The shapes, literally. -/
abbrev SX : Shape := ⟨2, ![100000, 128]⟩
abbrev SM : Shape := ⟨2, ![128, 128]⟩

/-- x·W, then times A. -/
def twoStep (x : SX.Idx → EReal) (W A : SM.Idx → EReal) : SX.Idx → EReal := fun i =>
  ∑ j : Fin 128, (∑ k : Fin 128, x (ix2 (i 0) k) * W (ix2 k j)) * A (ix2 j (i 1))

/-- The product W·A of the two small matrices. -/
def small (W A : SM.Idx → EReal) : SM.Idx → EReal := fun q =>
  ∑ j : Fin 128, W (ix2 (q 0) j) * A (ix2 j (q 1))

/-- x times (W·A). -/
def combined (x : SX.Idx → EReal) (W A : SM.Idx → EReal) : SX.Idx → EReal := fun i =>
  ∑ k : Fin 128, x (ix2 (i 0) k) * small W A (ix2 k (i 1))

theorem twoStep_apply (x : SX.Idx → EReal) (W A : SM.Idx → EReal) (r : Fin 100000) (l : Fin 128) :
    twoStep x W A (ix2 r l) = ∑ j : Fin 128, (∑ k : Fin 128, x (ix2 r k) * W (ix2 k j)) * A (ix2 j l) := rfl

theorem small_apply (W A : SM.Idx → EReal) (k l : Fin 128) :
    small W A (ix2 k l) = ∑ j : Fin 128, W (ix2 k j) * A (ix2 j l) := rfl

theorem combined_apply (x : SX.Idx → EReal) (W A : SM.Idx → EReal) (r : Fin 100000) (l : Fin 128) :
    combined x W A (ix2 r l) = ∑ k : Fin 128, x (ix2 r k) * small W A (ix2 k l) := rfl

/-- For real entries the two orders of multiplication give the same matrix. -/
theorem twoStep_eq_combined (x : SX.Idx → EReal) (W A : SM.Idx → EReal)
    (hx : IsReal x) (hW : IsReal W) (hA : IsReal A) : twoStep x W A = combined x W A := by
  funext i
  unfold twoStep combined small
  exact assoc_ereal (fun k => x (ix2 (i 0) k)) (fun k j => W (ix2 k j)) (fun j => A (ix2 j (i 1)))
    (fun k => hx _) (fun k j => hW _) (fun j => hA _)

end Cert.MatAssoc

end
-- ==== Proof.Finite.lean ====
/-
  What the precondition gives: every entry of the three inputs is a real number.

  The precondition is the conjunction of three tests "every |entry| is below +∞".  At the exact instance an entry is
  an extended real, and an extended real whose absolute value max (e, -e) is below +∞ is neither +∞ nor -∞.
-/
import proofs.«159437_g27676769255847_cont_9to1_279_6_alg».proof.Pre_finite_inputs
import proofs.«159437_g27676769255847_cont_9to1_279_6_alg».proof.Proof.MatAssoc
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs Cert.MatAssoc

instance : Subsingleton S_.Idx := ⟨fun a b => funext fun d => d.elim0⟩

/-- An extended real whose absolute value is below +∞ is a real number. -/
theorem real_of_abs_lt_top (e : EReal)
    (h : Ideal.cmp .olt (max e (-e)) (Ideal.ofBits .f32 0x7F800000#32) = 1#1) : ∃ r : ℝ, e = (r : EReal) := by
  have htop : Ideal.ofBits .f32 0x7F800000#32 = ⊤ := by simp [Ideal.ofBits, Ideal.ieee]
  rw [htop] at h
  induction e using EReal.rec with
  | bot => simp [Ideal.cmp] at h
  | coe r => exact ⟨r, rfl⟩
  | top => simp [Ideal.cmp] at h

variable [Facts]

/-- Under the precondition all three inputs have real entries. -/
theorem reals_of_pre (x : FVec Ideal S100000x128 .f32) (W A : FVec Ideal S128x128 .f32)
    (h : fn (F := Ideal) x W A = fun _ => 1#1) : IsReal x ∧ IsReal W ∧ IsReal A := by
  have h0 := congrFun h ValueIdx.ix0
  dsimp only [fn] at h0
  obtain ⟨h01, hA⟩ := IntOp.andi_eq_one.1 h0
  obtain ⟨hx, hW⟩ := IntOp.andi_eq_one.1 h01
  refine ⟨fun i => ?_, fun i => ?_, fun i => ?_⟩
  · exact real_of_abs_lt_top _ (Host.reduce_andi_all _ _ _ _ _ hx i)
  · exact real_of_abs_lt_top _ (Host.reduce_andi_all _ _ _ _ _ hW i)
  · exact real_of_abs_lt_top _ (Host.reduce_andi_all _ _ _ _ _ hA i)

end Cert.Pre_finite_inputs.Finite

end
-- ==== Proof.RefValue.lean ====
/-
  The reference, read entry by entry at the exact instance.

  The reference is two host matrix products in a row: first x·W, then the result times A.  Each product, read
  at an entry, is a sum over the one contracted axis (the generated read-at-an-index lemmas); composing the two
  gives `twoStep`: entry (i, l) is ∑ j, (∑ k, x (i, k) · W (k, j)) · A (j, l).
-/
import proofs.«159437_g27676769255847_cont_9to1_279_6_alg».proof.Proof.Gen.ReferenceIdeal.Read
import proofs.«159437_g27676769255847_cont_9to1_279_6_alg».proof.Proof.MatAssoc

noncomputable section

namespace Cert.ReferenceIdeal.RefValue

open Idealize.ShloMosaic Idealize.ShloMosaic.ValueIdx
open Cert.ReferenceIdeal Cert.ReferenceIdeal.Read Cert.MatAssoc

/-- The left operand of the second product, at an entry (r, l), is read in row `r`, column `j`. -/
theorem lidx1 (r : Fin 100000) (l j : Fin 128) : lidx_main_v1 (ix2 r l) j = ix2 r j :=
  funext fun a => Fin.ext (by match a with | ⟨0, _⟩ => rfl | ⟨1, _⟩ => rfl)

/-- The right operand of the second product, at an entry (r, l), is read in row `j`, column `l`. -/
theorem ridx1 (r : Fin 100000) (l j : Fin 128) : ridx_main_v1 (ix2 r l) j = ix2 j l :=
  funext fun a => Fin.ext (by match a with | ⟨0, _⟩ => rfl | ⟨1, _⟩ => rfl)

/-- The left operand of the first product, at an entry (r, j), is read in row `r`, column `k`. -/
theorem lidx0 (r : Fin 100000) (j k : Fin 128) : lidx_main_v0 (ix2 r j) k = ix2 r k :=
  funext fun a => Fin.ext (by match a with | ⟨0, _⟩ => rfl | ⟨1, _⟩ => rfl)

/-- The right operand of the first product, at an entry (r, j), is read in row `k`, column `j`. -/
theorem ridx0 (r : Fin 100000) (j k : Fin 128) : ridx_main_v0 (ix2 r j) k = ix2 k j :=
  funext fun a => Fin.ext (by match a with | ⟨0, _⟩ => rfl | ⟨1, _⟩ => rfl)

/-- The reference's result is the two-step product. -/
theorem reference_eq (x : S100000x128.Idx → EReal) (W A : S128x128.Idx → EReal) :
    val_main_v1 (F := Ideal) x W A = twoStep x W A := by
  funext i
  obtain ⟨r, l, rfl⟩ : ∃ (r : Fin 100000) (l : Fin 128), i = ix2 r l := ⟨i 0, i 1, eq_ix2 i⟩
  rw [val_main_v1_apply, twoStep_apply]
  refine Finset.sum_congr rfl fun j _ => ?_
  rw [lidx1, ridx1, val_main_v0_apply]
  simp only [lidx0, ridx0]

end Cert.ReferenceIdeal.RefValue

end
-- ==== Proof.KernelPieces.lean ====
/-
  What one run of the kernel body leaves behind, as values.

  The body has two control cases.  At the first grid point it multiplies the two small matrices, keeps the
  product in the scratch buffer, and multiplies the point's block of rows by that product.  At every later grid
  point it leaves the scratch as it found it and multiplies the point's block of rows by what the scratch holds.
  Each of the three stored values is the body's arithmetic (the payload terms `k0_pay1`, `k0_pay2`) applied to
  the blocks the body loaded; these lemmas say so for any float instance.
-/
import proofs.«159437_g27676769255847_cont_9to1_279_6_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First point: the scratch ends at the product of the two small blocks. -/
theorem scratch_first (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S10000x128 .f32) (h4 : a4.IsWhole) (a5 : Memref sig .tc .vmem S128x128 .bf16) (h5 : a5.IsWhole)
    (hc : cond0_0 i) (x0 : Vec F S10000x128 .f32) (x1 x2 : Vec F S128x128 .f32) :
    sout0_A_0 c i a1 h1 a2 h2 a3 h3 a4 h4 a5 h5 hc x0 x1 x2 = k0_pay1 x1 x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h2.read_unread, h3.read_unread, View.ld_unit_zero (S := S128x128) hz]

/-- First point: the output's staging buffer ends at the block of rows times the product just stored, which the
    body reads back from the scratch. -/
theorem out_first (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S10000x128 .f32) (h4 : a4.IsWhole) (a5 : Memref sig .tc .vmem S128x128 .bf16) (h5 : a5.IsWhole)
    (hc : cond0_0 i) (x0 : Vec F S10000x128 .f32) (x1 x2 : Vec F S128x128 .f32) :
    out0_A_3 c i a1 h1 a2 h2 a3 h3 a4 h4 a5 h5 hc x0 x1 x2 = k0_pay2 x0 (k0_pay1 x1 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz, View.readCov_unit_zero (S := S128x128) _ hz]
  simp only [View.readAt_eq_ld, h1.read_unread, h2.read_unread, h3.read_unread, View.ld_unit_zero (S := S10000x128) hz,
    View.ld_unit_zero (S := S128x128) hz]

/-- Later points: the output's staging buffer ends at the block of rows times what the scratch held. -/
theorem out_later (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S10000x128 .f32) (h4 : a4.IsWhole) (a5 : Memref sig .tc .vmem S128x128 .bf16) (h5 : a5.IsWhole)
    (hc : ¬cond0_0 i) (x0 : Vec F S10000x128 .f32) (x1 x2 : Vec F S128x128 .f32) (xs : Vec F S128x128 .bf16) :
    out0_B_3 c i a1 h1 a2 h2 a3 h3 a4 h4 a5 h5 hc x0 x1 x2 xs = k0_pay2 x0 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz]
  simp only [View.readAt_eq_ld, h1.read_unread, h5.read_unread, View.ld_unit_zero (S := S10000x128) hz,
    View.ld_unit_zero (S := S128x128) hz]

end Cert.KernelIdeal.Pieces

end
-- ==== Proof.KernelPayload.lean ====
/-
  The body's arithmetic, read entry by entry at the exact instance.

  Both payloads are matrix products into a zero accumulator, with roundings to bf16 on the way in and out.  At
  the exact instance a change of float format is the identity and a product into zero is the plain sum over the
  contracted axis, so

    * the value kept in the scratch, `k0_pay1 w a`, is the product of the two small matrices: entry (k, l) is
      ∑ j, w (k, j) · a (j, l);
    * the value stored to the output block, `k0_pay2 x cc`, is the block of rows times the scratch: entry
      (p, l) is ∑ k, x (p, k) · cc (k, l).
-/
import proofs.«159437_g27676769255847_cont_9to1_279_6_alg».proof.Proof.Gen.KernelIdeal.Skeleton
import proofs.«159437_g27676769255847_cont_9to1_279_6_alg».proof.Proof.MatAssoc
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen Cert.MatAssoc

/-! ### The small product: which entries of the operands an output entry reads -/

theorem small_lhs0 (q : S128x128.Idx) (k : dot_S128x128_S128x128_S128x128_1_0_0_1_n_n.contr.Idx) :
    (dot_S128x128_S128x128_S128x128_1_0_0_1_n_n.lhsIdx q k 0).val = (q 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl

theorem small_rhs1 (q : S128x128.Idx) (k : dot_S128x128_S128x128_S128x128_1_0_0_1_n_n.contr.Idx) :
    (dot_S128x128_S128x128_S128x128_1_0_0_1_n_n.rhsIdx q k 1).val = (q 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The scratch payload at entry (k, l): row k of the first small matrix against column l of the second. -/
theorem pay1_apply (w a : Vec Ideal S128x128 .f32) (k l : Fin 128) :
    k0_pay1 (F := Ideal) w a (ix2 k l) = ∑ j : Fin 128, w (ix2 k j) * a (ix2 j l) := by
  unfold k0_pay1
  refine (congrFun (shapeCast_self _ _) (ix2 k l)).trans ?_
  refine (Ideal.matmul_constant_zero_apply (φ₁ := .f32) (φ₂ := .f32) dot_S128x128_S128x128_S128x128_1_0_0_1_n_n none w a (ix2 k l)).trans ?_
  rw [← Equiv.sum_comp (contrEquiv1 dot_S128x128_S128x128_S128x128_1_0_0_1_n_n 128 rfl rfl).symm]
  refine Finset.sum_congr rfl fun j _ => ?_
  have hj := contrEquiv1_symm_val dot_S128x128_S128x128_S128x128_1_0_0_1_n_n 128 rfl rfl j
  have el : dot_S128x128_S128x128_S128x128_1_0_0_1_n_n.lhsIdx (ix2 k l) ((contrEquiv1 dot_S128x128_S128x128_S128x128_1_0_0_1_n_n 128 rfl rfl).symm j) = ix2 k j := funext fun b => Fin.ext (by
    match b with
    | ⟨0, _⟩ => exact small_lhs0 _ _
    | ⟨1, _⟩ => exact (dot_S128x128_S128x128_S128x128_1_0_0_1_n_n.lhsIdx_val_of_single rfl _ _).trans hj)
  have er : dot_S128x128_S128x128_S128x128_1_0_0_1_n_n.rhsIdx (ix2 k l) ((contrEquiv1 dot_S128x128_S128x128_S128x128_1_0_0_1_n_n 128 rfl rfl).symm j) = ix2 j l := funext fun b => Fin.ext (by
    match b with
    | ⟨0, _⟩ => exact (dot_S128x128_S128x128_S128x128_1_0_0_1_n_n.rhsIdx_val_of_single rfl _ _).trans hj
    | ⟨1, _⟩ => exact small_rhs1 _ _)
  rw [el, er]

/-- So the scratch payload is the product of the two small matrices. -/
theorem pay1_eq (w a : Vec Ideal S128x128 .f32) : k0_pay1 (F := Ideal) w a = small w a := by
  funext q
  obtain ⟨k, l, rfl⟩ : ∃ (k l : Fin 128), q = ix2 k l := ⟨q 0, q 1, eq_ix2 q⟩
  rw [pay1_apply, small_apply]

/-! ### The block product -/

theorem block_lhs0 (q : S10000x128.Idx) (k : dot_S10000x128_S128x128_S10000x128_1_0_0_1_n_n.contr.Idx) :
    (dot_S10000x128_S128x128_S10000x128_1_0_0_1_n_n.lhsIdx q k 0).val = (q 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem block_rhs1 (q : S10000x128.Idx) (k : dot_S10000x128_S128x128_S10000x128_1_0_0_1_n_n.contr.Idx) :
    (dot_S10000x128_S128x128_S10000x128_1_0_0_1_n_n.rhsIdx q k 1).val = (q 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The output payload at entry (p, l): row p of the block of rows against column l of the scratch. -/
theorem pay2_apply (x : Vec Ideal S10000x128 .f32) (cc : Vec Ideal S128x128 .bf16) (p : Fin 10000) (l : Fin 128) :
    k0_pay2 (F := Ideal) x cc (ix2 p l) = ∑ k : Fin 128, x (ix2 p k) * cc (ix2 k l) := by
  unfold k0_pay2
  refine (Ideal.matmul_constant_zero_apply (φ₁ := .bf16) (φ₂ := .bf16) dot_S10000x128_S128x128_S10000x128_1_0_0_1_n_n none x cc (ix2 p l)).trans ?_
  rw [← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 p l) ((contrEquiv1 dot_S10000x128_S128x128_S10000x128_1_0_0_1_n_n 128 rfl rfl).symm j) = ix2 p j := funext fun b => Fin.ext (by
    match b with
    | ⟨0, _⟩ => exact block_lhs0 _ _
    | ⟨1, _⟩ => exact (dot_S10000x128_S128x128_S10000x128_1_0_0_1_n_n.lhsIdx_val_of_single rfl _ _).trans hj)
  have er : dot_S10000x128_S128x128_S10000x128_1_0_0_1_n_n.rhsIdx (ix2 p l) ((contrEquiv1 dot_S10000x128_S128x128_S10000x128_1_0_0_1_n_n 128 rfl rfl).symm j) = ix2 j l := funext fun b => Fin.ext (by
    match b with
    | ⟨0, _⟩ => exact (dot_S10000x128_S128x128_S10000x128_1_0_0_1_n_n.rhsIdx_val_of_single rfl _ _).trans hj
    | ⟨1, _⟩ => exact block_rhs1 _ _)
  rw [el, er]

end Cert.KernelIdeal.Payload

end
-- ==== Proof.KernelValue.lean ====
/-
  The kernel's result array, as one function of the three inputs.

  The grid has ten points; point t handles rows 10000·t … 10000·t + 9999 of x, while the windows of W and A are the
  whole matrices at every point.  The scratch is written once, at the first point, with the product W·A, and is
  carried unchanged from then on; so after every point it holds W·A (induction on the point).  Hence what point t
  writes back is its block of rows of x times W·A, which is the block of rows of `combined x W A`.  The ten blocks
  are disjoint and cover the array (row r belongs to point r / 10000), so the array ends at `combined x W A`.
-/
import proofs.«159437_g27676769255847_cont_9to1_279_6_alg».proof.Proof.Gen.KernelIdeal.Value
import proofs.«159437_g27676769255847_cont_9to1_279_6_alg».proof.Proof.KernelPieces
import proofs.«159437_g27676769255847_cont_9to1_279_6_alg».proof.Proof.KernelPayload
import proofs.«159437_g27676769255847_cont_9to1_279_6_alg».proof.Proof.MatAssoc
import Idealize.ShloMosaic.Lib.Pipeline.Value
import Idealize.ShloMosaic.Lib.ValueIdx

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.MatAssoc

/-! ## For any float instance: the blocks, and the scratch across the grid -/

section anyF

variable {F : FTy → Type} [FloatOps F]
variable (m : (ℓ : Loc nD τ sig) → Buf (Elt F) ℓ)

/-- The printed index maps over the ten points: the windows of x and of the result move down one block of rows per
    point; the windows of W and A never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The window of W is all of W at every point. -/
theorem blkW (c : Dev nD) (t : Fin cfg0.N) : (iblk m c 1 t : Vec F S128x128 .f32) = V m c main_arg1 := by
  obtain ⟨-, -, e0, e1, -⟩ := idx_facts t
  funext y
  unfold iblk
  rw [View.read_apply]
  show V m c main_arg1 (((cfg0.win 1).blk t).view.emb y) = V m c main_arg1 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The window of A is all of A at every point. -/
theorem blkA (c : Dev nD) (t : Fin cfg0.N) : (iblk m c 2 t : Vec F S128x128 .f32) = V m c main_arg2 := by
  obtain ⟨-, -, -, -, e0, e1, -⟩ := idx_facts t
  funext y
  unfold iblk
  rw [View.read_apply]
  show V m c main_arg2 (((cfg0.win 2).blk t).view.emb y) = V m c main_arg2 y
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The window of x at point t, row p, is row 10000·t + p of x. -/
theorem blkX (c : Dev nD) (t : Fin cfg0.N) (p : Fin 10000) (k : Fin 128) (hr : t.val * 10000 + p.val < 100000) :
    (iblk m c 0 t : Vec F S10000x128 .f32) (ix2 p k) = V m c main_arg0 (ix2 ⟨t.val * 10000 + p.val, hr⟩ k) := by
  obtain ⟨e0, e1, -⟩ := idx_facts t
  unfold iblk
  rw [View.read_apply]
  show V m c main_arg0 (((cfg0.win 0).blk t).view.emb (ix2 p k)) = V m c main_arg0 _
  refine congrArg _ ?_
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

/-- After every point the scratch holds the body's product of W and A: stored at the first point, kept afterwards. -/
theorem scratch_eq (c : Dev nD) : ∀ (n : ℕ) (h : n < cfg0.N),
    (outsAt0 m c n h).2 = k0_pay1 (V m c main_arg1) (V m c main_arg2)
  | 0, h => by
    rw [outsAt0_A m c ⟨0, h⟩ rfl]
    dsimp only
    rw [Pieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩),
      blkW, blkA]
  | n + 1, h => by
    have hN : cfg0.N = 10 := N_0
    have hB : ¬(⟨n + 1, h⟩ : Fin cfg0.N).val % 10 = 0 := by dsimp only; omega
    rw [outsAt0_B m c ⟨n + 1, h⟩ hB]
    dsimp only
    unfold sout0_B_0
    exact scratch_eq c n _

/-- So after point t the output's staging buffer holds the point's block of rows of x times that product. -/
theorem out_eq (c : Dev nD) (t : Fin cfg0.N) :
    (outsAt0 m c t.val t.isLt).1 = k0_pay2 (iblk m c 0 t) (k0_pay1 (V m c main_arg1) (V m c main_arg2)) := by
  by_cases h0 : t.val % 10 = 0
  · rw [outsAt0_A m c t h0]
    dsimp only
    rw [Pieces.out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t), blkW, blkA]
  · rw [outsAt0_B m c t h0]
    dsimp only
    rw [Pieces.out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) _,
      scratch_eq]

end anyF

/-! ## At the exact instance: the result array is x·(W·A) -/

section exact

variable (m : (ℓ : Loc nD τ sig) → Buf (Elt Ideal) ℓ) (ρ : Dev nD → PrngReg)

/-- One point's stored block, entry by entry: if the block `xb` holds rows `r p` of x, the entry (p, l) of the
    block product with the small product is entry (r p, l) of x·(W·A). -/
theorem point_entry (x : SX.Idx → EReal) (W A : SM.Idx → EReal) (xb : Vec Ideal S10000x128 .f32)
    (r : Fin 10000 → Fin 100000) (hxb : ∀ (p : Fin 10000) (k : Fin 128), xb (ix2 p k) = x (ix2 (r p) k))
    (p : Fin 10000) (l : Fin 128) :
    k0_pay2 (F := Ideal) xb (k0_pay1 (F := Ideal) W A) (ix2 p l) = combined x W A (ix2 (r p) l) := by
  rw [Payload.pay2_apply, combined_apply]
  refine Finset.sum_congr rfl fun k _ => ?_
  rw [hxb, Payload.pay1_eq]

/-- What point t writes back is block t of x·(W·A). -/
theorem flushed_eq (c : Dev nD) (t : Fin cfg0.N) :
    (dats m 0 c).flushed 3 t = ((cfg0.win 3).blk t).view.read (Elt Ideal)
      (combined (V m c main_arg0) (V m c main_arg1) (V m c main_arg2)) := by
  rw [Value.flushed3, out_eq]
  obtain ⟨-, -, -, -, -, -, e30, e31⟩ := idx_facts t
  have hN : t.val < 10 := lt_of_lt_of_eq t.isLt (show cfg0.N = 10 from N_0)
  funext y
  show k0_pay2 (F := Ideal) (iblk m c 0 t) (k0_pay1 (F := Ideal) (V m c main_arg1) (V m c main_arg2)) y
    = combined (V m c main_arg0) (V m c main_arg1) (V m c main_arg2) (((cfg0.win 3).blk t).view.emb y)
  have h0 : (y 0).val < 10000 := (y 0).isLt
  have h1 : (y 1).val < 128 := (y 1).isLt
  have hemb : ((cfg0.win 3).blk t).view.emb y = ix2 (⟨t.val * 10000 + (y 0).val, by omega⟩ : Fin 100000) (⟨(y 1).val, h1⟩ : Fin 128) := by
    funext a; apply Fin.ext
    match a with
    | ⟨0, _⟩ => show win0_3.index t (0 : Fin 2) * 10000 + 1 * (y 0).val = t.val * 10000 + (y 0).val; omega
    | ⟨1, _⟩ => show win0_3.index t (1 : Fin 2) * 128 + 1 * (y 1).val = (y 1).val; omega
  have hy : y = ix2 (⟨(y 0).val, h0⟩ : Fin 10000) (⟨(y 1).val, h1⟩ : Fin 128) := by
    funext a
    match a with
    | ⟨0, _⟩ => rfl
    | ⟨1, _⟩ => rfl
  rw [hemb]
  refine (congrArg (k0_pay2 (F := Ideal) (iblk m c 0 t) (k0_pay1 (F := Ideal) (V m c main_arg1) (V m c main_arg2))) hy).trans ?_
  exact point_entry (V m c main_arg0) (V m c main_arg1) (V m c main_arg2) (iblk m c 0 t)
    (fun p => ⟨t.val * 10000 + p.val, by have := p.isLt; omega⟩)
    (fun p k => blkX m c t p k _) ⟨(y 0).val, h0⟩ ⟨(y 1).val, h1⟩

/-- An index of the result array lies in point t's block iff each coordinate is in the block's range. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- Every index of the result array is in the block of the point its row belongs to: row r is in block r / 10000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  have ht : (i 0).val / 10000 < cfg0.N := lt_of_lt_of_eq (by omega : (i 0).val / 10000 < 10) hN.symm
  refine ⟨⟨(i 0).val / 10000, ht⟩, flush0_3 _, ?_⟩
  obtain ⟨-, -, -, -, -, -, e30, e31⟩ := idx_facts ⟨(i 0).val / 10000, ht⟩
  rw [mem_blk]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, ht⟩ (1 : Fin 2) * 128 ≤ (i 1).val ∧ (i 1).val < win0_3.index ⟨(i 0).val / 10000, ht⟩ (1 : Fin 2) * 128 + 128
    rw [e31]; omega

/-- The result array after the run is x·(W·A) of the inputs as launched. -/
theorem final (c : Dev nD) : (dats m 0 c).arrAt 3 cfg0.N
    = combined (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result at x·(W·A), the inputs unchanged. -/
theorem run : θ_run defs (onTc (τ := τ) (main (F := Ideal))) ⟨m, fun _ => 0, ρ⟩ fun r => ∀ c : Dev nD,
      r.2.mem ((c : Thread nD τ).loc main_v0)
        = combined (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end exact

end Cert.KernelIdeal.KValue

end
-- ==== Proof.lean ====
/-
  The kernel computes x·(W·A): at the first grid point it multiplies the two small matrices and keeps the product
  in a scratch buffer, and at every grid point it multiplies a block of 10000 rows of x by that product.  The
  reference computes (x·W)·A with two matrix products.  At the exact instance the roundings to bf16 are the
  identity, every matrix product is the plain sum over the contracted axis, and the two results are equal because
  multiplication of matrices with real entries is associative: ∑ j, (∑ k, x_ik·W_kj)·A_jl = ∑ k, x_ik·(∑ j, W_kj·A_jl),
  by distributivity and an exchange of the two finite sums.  Distributivity needs the entries to be real numbers,
  not ±∞; that is what the precondition (every input entry finite) provides.

  The pieces: `MatAssoc` (the law and the two orders of multiplication as functions of the inputs), `Finite` (the
  precondition makes every entry real), `RefValue` (the reference's result is the two-step product),
  `KernelPieces` / `KernelPayload` / `KernelValue` (the kernel's result array is x·(W·A)).  The ideal pass rewrote
  nothing, so the kernel's idealization is its own text read at the exact instance.
-/
import proofs.«159437_g27676769255847_cont_9to1_279_6_alg».proof.Defs
import proofs.«159437_g27676769255847_cont_9to1_279_6_alg».proof.Proof.Gen.Kernel
import proofs.«159437_g27676769255847_cont_9to1_279_6_alg».proof.Proof.Gen.Kernel.Frame
import proofs.«159437_g27676769255847_cont_9to1_279_6_alg».proof.Proof.Gen.KernelIdeal
import proofs.«159437_g27676769255847_cont_9to1_279_6_alg».proof.Proof.Gen.KernelIdeal.Frame
import proofs.«159437_g27676769255847_cont_9to1_279_6_alg».proof.Proof.Gen.KernelIdeal.Value
import proofs.«159437_g27676769255847_cont_9to1_279_6_alg».proof.Proof.Gen.ReferenceIdeal
import proofs.«159437_g27676769255847_cont_9to1_279_6_alg».proof.Proof.Gen.ReferenceIdeal.Run
import proofs.«159437_g27676769255847_cont_9to1_279_6_alg».proof.Proof.Gen.ReferenceIdeal.Read
import proofs.«159437_g27676769255847_cont_9to1_279_6_alg».proof.Proof.Gen.Pre_finite_inputs
import proofs.«159437_g27676769255847_cont_9to1_279_6_alg».proof.Proof.MatAssoc
import proofs.«159437_g27676769255847_cont_9to1_279_6_alg».proof.Proof.Finite
import proofs.«159437_g27676769255847_cont_9to1_279_6_alg».proof.Proof.RefValue
import proofs.«159437_g27676769255847_cont_9to1_279_6_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's array ends at x·(W·A), the reference's at (x·W)·A of the same inputs; with every entry real the two
    are one matrix. -/
theorem algebraic : Cert.algebraic_KernelIdeal_ReferenceIdeal := by
  intro m ρ m' ρ' hpre hagree
  refine ⟨fun c => Cert.MatAssoc.combined
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hx, hW, hA⟩ := Cert.Pre_finite_inputs.Finite.reals_of_pre _ _ _ (hpre c)
  exact (Cert.ReferenceIdeal.RefValue.reference_eq _ _ _).trans (Cert.MatAssoc.twoStep_eq_combined _ _ _ hx hW hA)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
